-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S800000x32 : Shape := ⟨2, ![800000, 32]⟩
abbrev S32x128 : Shape := ⟨2, ![32, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  reducesTo_S_S_d : S_.ReducesTo [] S_

variable [Facts]

def fn_part5 {F : FTy → Type} [FloatOps F] (main_arg19 : FVec F S_ .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S_ .f32 := Host.absf main_arg19
  let main_cst_34 : FVec F S_ .f32 := constant S_ .f32 0x7F800000#32
  let main_v90 : IVec S_ 1 := cmpf .olt main_v89 main_cst_34
  let main_c_35 : IVec S_ 1 := constantI S_ 1 1#1
  let main_v91 : IVec S_ 1 := (fun x v => Host.reduce IntOp.andi x v reducesTo_S_S_d h_S_) main_v90 main_c_35
  let main_v92 : IVec S_ 1 := andi main_v88 main_v91
  main_v92

def fn_part4 {F : FTy → Type} [FloatOps F] (main_arg15 : FVec F S128x128 .f32) (main_arg16 : FVec F S128 .f32) (main_arg17 : FVec F S128x128 .f32) (main_arg18 : FVec F S128 .f32) (main_arg19 : FVec F S_ .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S_ .f32) (main_v48 : IVec S_ 1) (main_v49 : FVec F S32x128 .f32) (main_v50 : FVec F S32x128 .f32) : IVec S_ 1 :=
  let main_v51 : IVec S32x128 1 := cmpf .olt main_v49 main_v50
  let main_c_19 : IVec S_ 1 := constantI S_ 1 1#1
  let main_v52 : IVec S_ 1 := (fun x v => Host.reduce IntOp.andi x v reducesTo_S32x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_v63 main_v67

def fn_part2 {F : FTy → Type} [FloatOps F] (main_arg8 : FVec F S128 .f32) (main_arg9 : FVec F S128x128 .f32) (main_arg10 : FVec F S128 .f32) (main_arg11 : FVec F S32x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S_ .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S32x128 .f32 := Host.absf main_arg11
  let main_cst_18 : FVec F S_ .f32 := constant S_ .f32 0x7F800000#32
  let main_v50 : FVec F S32x128 .f32 := broadcastInDim S32x128 ![] bcast_S_S32x128 main_cst_18
  fn_part3 (F := F) main_arg12 main_arg13 main_arg14 main_arg15 main_arg16 main_arg17 main_arg18 main_arg19 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S32x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x800000 32) (main_arg2 : FVec F S800000x32 .f32) (main_arg3 : FVec F S32x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S32x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x800000 : Shape := ⟨2, ![2, 800000]⟩
abbrev S800000x32 : Shape := ⟨2, ![800000, 32]⟩
abbrev S32x128 : Shape := ⟨2, ![32, 128]⟩
abbrev S128 : Shape := ⟨1, ![128]⟩
abbrev S128x128 : Shape := ⟨2, ![128, 128]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S3200x128 : Shape := ⟨2, ![3200, 128]⟩
abbrev S3200x32 : Shape := ⟨2, ![3200, 32]⟩
abbrev S1x128 : Shape := ⟨2, ![1, 128]⟩

abbrev nBuf : Space → Nat
  | .hbm => 65
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S800000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S32x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S_, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S100000x128, .f32⟩
  | .hbm, ⟨46, _⟩ => ⟨S800000x1, .i32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S800000x1, .i32⟩
  | .hbm, ⟨51, _⟩ => ⟨S100000x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .local _ .vmem, ⟨0, _⟩ => ⟨S3200x128, .f32⟩
  | .local _ .vmem, ⟨1, _⟩ => ⟨S3200x128, .f32⟩
  | .local _ .vmem, ⟨2, _⟩ => ⟨S3200x32, .f32⟩
  | .local _ .vmem, ⟨3, _⟩ => ⟨S3200x32, .f32⟩
  | .local _ .vmem, ⟨4, _⟩ => ⟨S32x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x128, .f32⟩
  | .local _ .vmem, ⟨16, _⟩ => ⟨S3200x32, .f32⟩
  | .local _ .vmem, ⟨17, _⟩ => ⟨S3200x32, .f32⟩
  | .local _ .vmem, ⟨18, _⟩ => ⟨S32x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S3200x128, .f32⟩
  | .local _ .vmem, ⟨27, _⟩ => ⟨S3200x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3200x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S3200x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x32_S3200x32_0_0 : ∀ a, (![0, 0] : Fin 2 → Nat) a + S3200x32.size a ≤ S3200x32.size a
  h_S3200x32 : 0 < S3200x32.numel
  inb_S32x128_S32x128_0_0 : ∀ a, (![0, 0] : Fin 2 → Nat) a + S32x128.size a ≤ S32x128.size a
  h_S32x128 : 0 < S32x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S3200x128 : S1x128.Broadcasts S3200x128
  bcast_S_S100000x128 : S_.BroadcastsInDim S100000x128 (![] : Fin 0 → Fin S100000x128.rank)
  gather_S100000x128_S800000x1_S800000x128_1_0_n_n_0_1_1128_wf : GatherDims.WF S100000x128 S800000x1 S800000x128 [1] [0] [] [0] [] 1 ![1, 128]
  dot_S3200x32_S32x128_S3200x128_1_0_0_1_n_n_wf : DotDims.WF S3200x32 S32x128 S3200x128 [1] [0] [0] [1] [] []
  dot_S3200x128_S128x128_S3200x128_1_0_0_1_n_n_wf : DotDims.WF S3200x128 S128x128 S3200x128 [1] [0] [0] [1] [] []
  scatter_S100000x128_S800000x1_S800000x128_1_0_0_1_wf : ScatterDims.WF S100000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x32.size a ≤ S800000x32.size a
  hwx0_1 : ∀ i : grid0.Coords, EltTy.bits .f32 = 32 ∨ (Rect.block (s := S800000x32) S3200x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x128.size a ≤ S800000x128.size a
  hwx0_10 : ∀ i : grid0.Coords, EltTy.bits .f32 = 32 ∨ (Rect.block (s := S800000x128) S3200x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S800000x128.size a
  hwx1_0 : ∀ i : grid1.Coords, EltTy.bits .f32 = 32 ∨ (Rect.block (s := S800000x128) S3200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x32.size a ≤ S800000x32.size a
  hwx1_1 : ∀ i : grid1.Coords, EltTy.bits .f32 = 32 ∨ (Rect.block (s := S800000x32) S3200x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x128.size a ≤ S32x128.size a
  hwx1_2 : ∀ i : grid1.Coords, EltTy.bits .f32 = 32 ∨ (Rect.block (s := S32x128) S32x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S3200x128.size a ≤ S800000x128.size a
  hwx1_10 : ∀ i : grid1.Coords, EltTy.bits .f32 = 32 ∨ (Rect.block (s := S800000x128) S3200x128.size (cc1_transform_10 i) (hinb1_10 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S3200x32_S32x128_S3200x128_1_0_0_1_n_n : DotDims S3200x32 S32x128 S3200x128 where
  lhsContracting := [1]
  rhsContracting := [0]
  lhsNonContracting := [0]
  rhsNonContracting := [1]
  lhsBatch := []
  rhsBatch := []
  wf := dot_S3200x32_S32x128_S3200x128_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3200x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S3200x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v17) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S3200x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S32x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v19) S3200x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S800000x32 : Shape := ⟨2, ![800000, 32]⟩
abbrev S32x128 : Shape := ⟨2, ![32, 128]⟩
abbrev S128 : Shape := ⟨1, ![128]⟩
abbrev S128x128 : Shape := ⟨2, ![128, 128]⟩
abbrev S_ : Shape := ⟨0, ![]⟩
abbrev S1x800000 : Shape := ⟨2, ![1, 800000]⟩
abbrev S800000 : Shape := ⟨1, ![800000]⟩
abbrev S800000x128 : Shape := ⟨2, ![800000, 128]⟩
abbrev S1x128 : Shape := ⟨2, ![1, 128]⟩
abbrev S800000x1 : Shape := ⟨2, ![800000, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S800000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S32x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S_, .f32⟩
  | .hbm, ⟨20, _⟩ => ⟨S1x800000, .i32⟩
  | .hbm, ⟨21, _⟩ => ⟨S800000, .i32⟩
  | .hbm, ⟨22, _⟩ => ⟨S1x800000, .i32⟩
  | .hbm, ⟨23, _⟩ => ⟨S800000, .i32⟩
  | .hbm, ⟨24, _⟩ => ⟨S800000x128, .f32⟩
  | .hbm, ⟨25, _⟩ => ⟨S1x128, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S800000x128, .f32⟩
  | .hbm, ⟨30, _⟩ => ⟨S800000x128, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S1x128, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S1x128, .f32⟩
  | .hbm, ⟨54, _⟩ => ⟨S800000x128, .f32⟩
  | .hbm, ⟨55, _⟩ => ⟨S800000x128, .f32⟩
  | .hbm, ⟨56, _⟩ => ⟨S_, .f32⟩
  | .hbm, ⟨57, _⟩ => ⟨S100000x128, .f32⟩
  | .hbm, ⟨58, _⟩ => ⟨S800000x1, .i32⟩
  | .hbm, ⟨59, _⟩ => ⟨S100000x128, .f32⟩
  | .hbm, ⟨60, _⟩ => ⟨S800000x128, .f32⟩
  | .hbm, ⟨61, _⟩ => ⟨S1x128, .f32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S800000x128, .f32⟩
  | .hbm, ⟨66, _⟩ => ⟨S800000x128, .f32⟩
  | .hbm, ⟨67, _⟩ => ⟨S800000x128, .f32⟩
  | .hbm, ⟨68, _⟩ => ⟨S1x128, .f32⟩
  | .hbm, ⟨69, _⟩ => ⟨S800000x128, .f32⟩
  | .hbm, ⟨70, _⟩ => ⟨S800000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S800000x128, .f32⟩
  | .hbm, ⟨81, _⟩ => ⟨S800000x128, .f32⟩
  | .hbm, ⟨82, _⟩ => ⟨S1x128, .f32⟩
  | .hbm, ⟨83, _⟩ => ⟨S800000x128, .f32⟩
  | .hbm, ⟨84, _⟩ => ⟨S800000x128, .f32⟩
  | .hbm, ⟨85, _⟩ => ⟨S_, .f32⟩
  | .hbm, ⟨86, _⟩ => ⟨S800000x128, .f32⟩
  | .hbm, ⟨87, _⟩ => ⟨S800000x128, .f32⟩
  | .hbm, ⟨88, _⟩ => ⟨S800000x128, .f32⟩
  | .hbm, ⟨89, _⟩ => ⟨S1x128, .f32⟩
  | .hbm, ⟨90, _⟩ => ⟨S800000x128, .f32⟩
  | .hbm, ⟨91, _⟩ => ⟨S800000x128, .f32⟩
  | .hbm, ⟨92, _⟩ => ⟨S_, .f32⟩
  | .hbm, ⟨93, _⟩ => ⟨S100000x128, .f32⟩
  | .hbm, ⟨94, _⟩ => ⟨S800000x1, .i32⟩
  | .hbm, ⟨95, _⟩ => ⟨S100000x128, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S_, .f32⟩
  | .hbm, ⟨105, _⟩ => ⟨S_, .f32⟩
  | .hbm, ⟨106, _⟩ => ⟨S100000x128, .f32⟩
  | .hbm, ⟨107, _⟩ => ⟨S100000x128, .f32⟩
  | .hbm, ⟨108, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call0_cst : Ref sig .tc := ⟨.hbm, 28, rfl⟩
abbrev main_call0_v0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call1_cst : Ref sig .tc := ⟨.hbm, 49, rfl⟩
abbrev main_call1_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call2_cst : Ref sig .tc := ⟨.hbm, 64, rfl⟩
abbrev main_call2_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_1 : Ref sig .tc := ⟨.hbm, 71, rfl⟩
abbrev main_v42 : Ref sig .tc := ⟨.hbm, 72, rfl⟩
abbrev main_v43 : Ref sig .tc := ⟨.hbm, 73, rfl⟩
abbrev main_c_2 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call3_cst : Ref sig .tc := ⟨.hbm, 85, rfl⟩
abbrev main_call3_v0 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_3 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_4 : Ref sig .tc := ⟨.hbm, 98, rfl⟩
abbrev main_v64 : Ref sig .tc := ⟨.hbm, 99, rfl⟩
abbrev main_cst_5 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_6 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  dot_S800000x32_S32x128_S800000x128_1_0_0_1_n_n_wf : DotDims.WF S800000x32 S32x128 S800000x128 [1] [0] [0] [1] [] []
  dot_S800000x128_S128x128_S800000x128_1_0_0_1_n_n_wf : DotDims.WF S800000x128 S128x128 S800000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1

variable [Facts₀]

def dot_S800000x32_S32x128_S800000x128_1_0_0_1_n_n : DotDims S800000x32 S32x128 S800000x128 where
  lhsContracting := [1]
  rhsContracting := [0]
  lhsNonContracting := [0]
  rhsNonContracting := [1]
  lhsBatch := []
  rhsBatch := []
  wf := dot_S800000x32_S32x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf

class Facts : Prop extends Facts₀ where

variable [Facts]
-- ==== Proof.KernelRun.lean ====
/-
  The idealized kernel's whole run, with its result named.

  @main is four stretches: the host operations that slice the edge list and gather the node rows, the two message
  networks (one launch each over 250 blocks of 3200 edges), and the host operations that scatter-add the messages to
  the nodes and mix the two directions. Every weakly fair execution runs through them in order, and at the end every
  buffer that is not a launch's scratch holds what the fold of those four stretches leaves in it. Read at the result
  buffer, that is the statement below; read at an argument, it is the argument as launched.
-/
import proofs.«115802_j53395033424421_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at what the last stretch
    of host operations leaves there (`W4`), and every argument ends as launched. -/
theorem run : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩)

end Cert.KernelIdeal.Named

end
-- ==== Proof.EdgeMessage.lean ====
/-
  The message of one edge, on the extended reals.

  An edge carries a feature row `x` (128 entries: the row of the node table gathered at one of its endpoints) and an
  attribute row `a` (32 entries). Its message is two dense two-layer networks in a row:

      e = relu(a · We1 + be1) · We2 + be2            the attributes projected to 128 features
      m = relu((x + e) · Wm1 + bm1) · Wm2 + bm2      the message

  with `relu t = max t 0`, every product `v · W` the plain sum `Σ_k v k · W (k, j)`, and every operation the exact one
  on the extended reals. The message of an edge depends on that edge's two rows only, which is what lets an array of
  edges be cut into blocks of rows: `messages` is the same function whatever the number of rows. Nothing here
  mentions a program.
-/
import Idealize.ShloMosaic.PureOps.Ideal.Laws
import Idealize.ShloMosaic.Lib.ValueIdx

noncomputable section

namespace Cert.EdgeMessage

open Idealize.ShloMosaic Idealize.ShloMosaic.ValueIdx

/-- A weight matrix with 128 output units, and a bias row. -/
abbrev Mat (K : ℕ) : Type := (⟨2, ![K, 128]⟩ : Shape).Idx → EReal
abbrev Row : Type := (⟨1, ![128]⟩ : Shape).Idx → EReal

/-- The float word of `+0.0`, read as an extended real (it is `0`; the proofs never need to know). -/
abbrev zeroWord : EReal := Ideal.ofBits .f32 0x00000000#32

/-- A dense layer at output unit `j`: `Σ_k v k · W (k, j) + b j`. -/
def dense {K : ℕ} (v : Fin K → EReal) (W : Mat K) (b : Row) (j : Fin 128) : EReal :=
  (∑ k : Fin K, v k * W (ix2 k j)) + b (ix1 j)

/-- A dense layer followed by the rectifier `max · 0`. -/
def denseRelu {K : ℕ} (v : Fin K → EReal) (W : Mat K) (b : Row) (j : Fin 128) : EReal :=
  max (dense v W b j) zeroWord

/-- The edge's attributes projected to 128 features: `relu(a · We1 + be1) · We2 + be2`. -/
def project (a : Fin 32 → EReal) (We1 : Mat 32) (be1 : Row) (We2 : Mat 128) (be2 : Row) (j : Fin 128) : EReal :=
  dense (denseRelu a We1 be1) We2 be2 j

/-- The message of one edge: `relu((x + project a) · Wm1 + bm1) · Wm2 + bm2`. -/
def message (x : Fin 128 → EReal) (a : Fin 32 → EReal) (We1 : Mat 32) (be1 : Row) (We2 : Mat 128) (be2 : Row)
    (Wm1 : Mat 128) (bm1 : Row) (Wm2 : Mat 128) (bm2 : Row) (j : Fin 128) : EReal :=
  dense (denseRelu (fun k => x k + project a We1 be1 We2 be2 k) Wm1 bm1) Wm2 bm2 j

/-- The messages of `M` edges, one row each: row `p` of the result is the message of row `p` of the features and row
    `p` of the attributes. -/
def messages (M : ℕ) (xs : (⟨2, ![M, 128]⟩ : Shape).Idx → EReal) (as : (⟨2, ![M, 32]⟩ : Shape).Idx → EReal)
    (We1 : Mat 32) (be1 : Row) (We2 : Mat 128) (be2 : Row) (Wm1 : Mat 128) (bm1 : Row) (Wm2 : Mat 128) (bm2 : Row) :
    (⟨2, ![M, 128]⟩ : Shape).Idx → EReal :=
  fun i => message (fun k => xs (ix2 ⟨(i 0).val, idx2_lt0 i⟩ k)) (fun k => as (ix2 ⟨(i 0).val, idx2_lt0 i⟩ k))
    We1 be1 We2 be2 Wm1 bm1 Wm2 bm2 ⟨(i 1).val, idx2_lt1 i⟩

/-- `messages` read at row `p`, unit `j`. -/
theorem messages_at (M : ℕ) (xs : (⟨2, ![M, 128]⟩ : Shape).Idx → EReal) (as : (⟨2, ![M, 32]⟩ : Shape).Idx → EReal)
    (We1 : Mat 32) (be1 : Row) (We2 : Mat 128) (be2 : Row) (Wm1 : Mat 128) (bm1 : Row) (Wm2 : Mat 128) (bm2 : Row)
    (p : Fin M) (j : Fin 128) :
    messages M xs as We1 be1 We2 be2 Wm1 bm1 Wm2 bm2 (ix2 p j)
      = message (fun k => xs (ix2 p k)) (fun k => as (ix2 p k)) We1 be1 We2 be2 Wm1 bm1 Wm2 bm2 j := rfl

end Cert.EdgeMessage

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.PayloadAt.lean ====
/-
  What the message kernel's body computes, read at one entry.

  The body loads a block of 3200 feature rows `x`, the matching 3200 attribute rows `a`, four weight matrices and
  four bias rows, and stores one `3200 × 128` block. Entry `(p, j)` of what it stores is the message of edge `p` of the
  block at unit `j` (`Cert.EdgeMessage.message`): each matrix product into a zero accumulator is the plain sum over the
  contracted coordinate, a change of float format is the identity on the extended reals, a bias row reshaped to
  `1 × 128` and broadcast over the rows reads the bias at the column, and the rectifier is `max · 0`. Only row `p` of
  the two blocks enters.
-/
import proofs.«115802_j53395033424421_1_alg».proof.Proof.Gen.KernelIdeal.Skeleton
import proofs.«115802_j53395033424421_1_alg».proof.Proof.EdgeMessage
import proofs.«115802_j53395033424421_1_alg».proof.Proof.LibPlainMatmul
import Idealize.ShloMosaic.Lib.ValueLayout
import Idealize.ShloMosaic.Lib.Pipeline.Value

noncomputable section

namespace Cert.KernelIdeal.Payload

open Idealize.ShloMosaic Idealize.ShloMosaic.ValueIdx
open Cert.KernelIdeal Cert.KernelIdeal.Gen Cert.EdgeMessage

/-! ## Where the two products' dimension numbers send an output index and a contraction index -/

theorem a_l0 (i : S3200x128.Idx) (q : dot_S3200x32_S32x128_S3200x128_1_0_0_1_n_n.contr.Idx) :
    (dot_S3200x32_S32x128_S3200x128_1_0_0_1_n_n.lhsIdx i q 0).val = (i 0).val := by
  unfold DotDims.lhsIdx
  rw [dif_neg (show ¬(0 : Fin S3200x32.rank) ∈ dot_S3200x32_S32x128_S3200x128_1_0_0_1_n_n.lhsBatch by decide),
    dif_pos (show (0 : Fin S3200x32.rank) ∈ dot_S3200x32_S32x128_S3200x128_1_0_0_1_n_n.lhsNonContracting by decide)]
  rfl
theorem a_l1 (i : S3200x128.Idx) (q : dot_S3200x32_S32x128_S3200x128_1_0_0_1_n_n.contr.Idx) :
    (dot_S3200x32_S32x128_S3200x128_1_0_0_1_n_n.lhsIdx i q 1).val = (q ⟨0, by decide⟩).val :=
  dot_S3200x32_S32x128_S3200x128_1_0_0_1_n_n.lhsIdx_val_of_single rfl i q
theorem a_r0 (i : S3200x128.Idx) (q : dot_S3200x32_S32x128_S3200x128_1_0_0_1_n_n.contr.Idx) :
    (dot_S3200x32_S32x128_S3200x128_1_0_0_1_n_n.rhsIdx i q 0).val = (q ⟨0, by decide⟩).val :=
  dot_S3200x32_S32x128_S3200x128_1_0_0_1_n_n.rhsIdx_val_of_single rfl i q
theorem a_r1 (i : S3200x128.Idx) (q : dot_S3200x32_S32x128_S3200x128_1_0_0_1_n_n.contr.Idx) :
    (dot_S3200x32_S32x128_S3200x128_1_0_0_1_n_n.rhsIdx i q 1).val = (i 1).val := by
  unfold DotDims.rhsIdx
  rw [dif_neg (show ¬(1 : Fin S32x128.rank) ∈ dot_S3200x32_S32x128_S3200x128_1_0_0_1_n_n.rhsBatch by decide),
    dif_pos (show (1 : Fin S32x128.rank) ∈ dot_S3200x32_S32x128_S3200x128_1_0_0_1_n_n.rhsNonContracting by decide)]
  rfl

theorem h_l0 (i : S3200x128.Idx) (q : dot_S3200x128_S128x128_S3200x128_1_0_0_1_n_n.contr.Idx) :
    (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide),
    dif_pos (show (0 : Fin S3200x128.rank) ∈ dot_S3200x128_S128x128_S3200x128_1_0_0_1_n_n.lhsNonContracting by decide)]
  rfl
theorem h_l1 (i : S3200x128.Idx) (q : dot_S3200x128_S128x128_S3200x128_1_0_0_1_n_n.contr.Idx) :
    (dot_S3200x128_S128x128_S3200x128_1_0_0_1_n_n.lhsIdx i q 1).val = (q ⟨0, by decide⟩).val :=
  dot_S3200x128_S128x128_S3200x128_1_0_0_1_n_n.lhsIdx_val_of_single rfl i q
theorem h_r0 (i : S3200x128.Idx) (q : dot_S3200x128_S128x128_S3200x128_1_0_0_1_n_n.contr.Idx) :
    (dot_S3200x128_S128x128_S3200x128_1_0_0_1_n_n.rhsIdx i q 0).val = (q ⟨0, by decide⟩).val :=
  dot_S3200x128_S128x128_S3200x128_1_0_0_1_n_n.rhsIdx_val_of_single rfl i q
theorem h_r1 (i : S3200x128.Idx) (q : dot_S3200x128_S128x128_S3200x128_1_0_0_1_n_n.contr.Idx) :
    (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide),
    dif_pos (show (1 : Fin S128x128.rank) ∈ dot_S3200x128_S128x128_S3200x128_1_0_0_1_n_n.rhsNonContracting by decide)]
  rfl

/-! ## One layer of the body at an entry -/

/-- A bias row reshaped to `1 × 128` and broadcast over the block's rows reads, at `(p, j)`, the bias at `j`. -/
theorem bias_at (b : Vec Ideal S128 .f32) (p : Fin 3200) (j : Fin 128) :
    broadcastTo S3200x128 (shapeCast S1x128 b shapeCasts_S128_S1x128) broadcasts_S1x128_S3200x128 (ix2 p j) = b (ix1 j) := by
  rw [broadcastTo_1b_ab_apply, shapeCast_a_1a_apply]

/-- The first layer of the attribute network: `a · We1` into a zero accumulator, plus the bias. -/
theorem layerA_at (a : FVec Ideal S3200x32 .f32) (W : Vec Ideal S32x128 .f32) (b : Vec Ideal S128 .f32) (p : Fin 3200) (j : Fin 128) :
    addf (matmul dot_S3200x32_S32x128_S3200x128_1_0_0_1_n_n none (truncf .bf16 a bitsLt_bf16_f32) (truncf .bf16 W bitsLt_bf16_f32)
        (constant S3200x128 .f32 0x00000000#32))
      (broadcastTo S3200x128 (shapeCast S1x128 b shapeCasts_S128_S1x128) broadcasts_S1x128_S3200x128) (ix2 p j)
      = dense (fun k => a (ix2 p k)) W b j := by
  rw [addf_apply, bias_at]
  unfold dense
  congr 1
  exact Cert.LibPlainMatmul.matmul_zero_at dot_S3200x32_S32x128_S3200x128_1_0_0_1_n_n none rfl rfl a_l0 a_l1 a_r0 a_r1 _ _ p j

/-- A `128 → 128` layer of the body: `h · W` into a zero accumulator, plus the bias. -/
theorem layerH_at (h : FVec Ideal S3200x128 .f32) (W : Vec Ideal S128x128 .f32) (b : Vec Ideal S128 .f32) (p : Fin 3200) (j : Fin 128) :
    addf (matmul dot_S3200x128_S128x128_S3200x128_1_0_0_1_n_n none (truncf .bf16 h bitsLt_bf16_f32) (truncf .bf16 W bitsLt_bf16_f32)
        (constant S3200x128 .f32 0x00000000#32))
      (broadcastTo S3200x128 (shapeCast S1x128 b shapeCasts_S128_S1x128) broadcasts_S1x128_S3200x128) (ix2 p j)
      = dense (fun k => h (ix2 p k)) W b j := by
  rw [addf_apply, bias_at]
  unfold dense
  congr 1
  exact Cert.LibPlainMatmul.matmul_zero_at dot_S3200x128_S128x128_S3200x128_1_0_0_1_n_n none rfl rfl h_l0 h_l1 h_r0 h_r1 _ _ p j

/-- The rectifier as the body writes it: the maximum with the splat of `+0.0`. -/
theorem relu_at (h : FVec Ideal S3200x128 .f32) (p : Fin 3200) (j : Fin 128) :
    maximumf h (broadcast S3200x128 (Scalar.ofBits (F := Ideal) .f32 0x00000000#32)) (ix2 p j) = max (h (ix2 p j)) zeroWord := rfl

/-! ## The stored block at an entry -/

/-- Entry `(p, j)` of the block the body stores is the message of the block's edge `p` at unit `j`. -/
theorem stored_at (x : Vec Ideal S3200x128 .f32) (a : Vec Ideal S3200x32 .f32) (We1 : Vec Ideal S32x128 .f32) (be1 : Vec Ideal S128 .f32)
    (We2 : Vec Ideal S128x128 .f32) (be2 : Vec Ideal S128 .f32) (Wm1 : Vec Ideal S128x128 .f32) (bm1 : Vec Ideal S128 .f32)
    (Wm2 : Vec Ideal S128x128 .f32) (bm2 : Vec Ideal S128 .f32) (p : Fin 3200) (j : Fin 128) :
    k0_pay1 (F := Ideal) bm2 (k0_pay2 (F := Ideal) x a We1 We2 Wm1 Wm2 be1 be2 bm1) (ix2 p j)
      = message (fun k => x (ix2 p k)) (fun k => a (ix2 p k)) We1 be1 We2 be2 Wm1 bm1 Wm2 bm2 j := by
  unfold k0_pay1 k0_pay2
  rw [layerH_at]
  unfold message
  congr 1
  funext k
  rw [relu_at, layerH_at]
  unfold denseRelu
  congr 2
  funext k'
  rw [addf_apply, shapeCast_self, layerH_at]
  unfold project
  congr 2
  funext k''
  rw [relu_at, layerA_at]
  rfl

/-- The second launch's body is the first one's, entry for entry (the two kernels are one text). -/
theorem stored_at' (x : Vec Ideal S3200x128 .f32) (a : Vec Ideal S3200x32 .f32) (We1 : Vec Ideal S32x128 .f32) (be1 : Vec Ideal S128 .f32)
    (We2 : Vec Ideal S128x128 .f32) (be2 : Vec Ideal S128 .f32) (Wm1 : Vec Ideal S128x128 .f32) (bm1 : Vec Ideal S128 .f32)
    (Wm2 : Vec Ideal S128x128 .f32) (bm2 : Vec Ideal S128 .f32) (p : Fin 3200) (j : Fin 128) :
    k1_pay1 (F := Ideal) bm2 (k1_pay2 (F := Ideal) x a We1 We2 Wm1 Wm2 be1 be2 bm1) (ix2 p j)
      = message (fun k => x (ix2 p k)) (fun k => a (ix2 p k)) We1 be1 We2 be2 Wm1 bm1 Wm2 bm2 j :=
  stored_at x a We1 be1 We2 be2 Wm1 bm1 Wm2 bm2 p j

end Cert.KernelIdeal.Payload

end
-- ==== Proof.RegionArray.lean ====
/-
  What each launch of the message kernel leaves in its output array.

  A launch runs the body at 250 points; point `t` reads rows `3200 t … 3200 t + 3199` of the gathered features and of
  the attributes, the whole of every weight matrix and bias row, and writes back rows `3200 t … 3200 t + 3199` of the
  output. Since a message depends on its own edge's two rows only, the block written at `t` is the restriction of ONE
  function of the whole arrays — `Cert.EdgeMessage.messages` over all 800000 edges — and the 250 blocks tile the
  array, so after the launch the output array IS that function. Stated for any contents `V` the launch is entered
  from; the two launches differ in which arrays they read.
-/
import proofs.«115802_j53395033424421_1_alg».proof.Proof.Gen.KernelIdeal.Frame
import proofs.«115802_j53395033424421_1_alg».proof.Proof.PayloadAt
import Idealize.ShloMosaic.Lib.Pipeline.Value

set_option maxRecDepth 16384

noncomputable section

namespace Cert.KernelIdeal.RegionArray

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeMessage

theorem hz2 : (![0, 0] : Fin 2 → Nat) = fun _ => 0 := funext fun a => by fin_cases a <;> rfl
theorem hz1 : (![0] : Fin 1 → Nat) = fun _ => 0 := funext fun a => by fin_cases a <;> rfl

/-- A message is a function of its ten arguments. -/
theorem message_congr {x x' : Fin 128 → EReal} {a a' : Fin 32 → EReal} {We1 We1' : Mat 32} {be1 be1' : Row} {We2 We2' : Mat 128} {be2 be2' : Row}
    {Wm1 Wm1' : Mat 128} {bm1 bm1' : Row} {Wm2 Wm2' : Mat 128} {bm2 bm2' : Row}
    (hx : x = x') (ha : a = a') (h2 : We1 = We1') (h3 : be1 = be1') (h4 : We2 = We2') (h5 : be2 = be2')
    (h6 : Wm1 = Wm1') (h7 : bm1 = bm1') (h8 : Wm2 = Wm2') (h9 : bm2 = bm2') (j : Fin 128) :
    message x a We1 be1 We2 be2 Wm1 bm1 Wm2 bm2 j = message x' a' We1' be1' We2' be2' Wm1' bm1' Wm2' bm2' j := by
  subst hx ha h2 h3 h4 h5 h6 h7 h8 h9; rfl

variable (V : (c : Dev nD) → (b : Ref sig .tc) → Buf (Elt Ideal) ((c : Thread nD τ).loc b))

/-! ## Launch 0 -/

/-- The printed index maps of launch 0, decided over its 250 points: the two edge-indexed inputs and the output move
    with the point along the rows, every weight and bias stays at its one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 2) = t.val ∧ win0_10.index t (1 : Fin 2) = 0 :=
  (by decide +kernel : ∀ t : Fin grid0.N, _)

/-- What point `t` writes back is block `t` (rows `3200 t … 3200 t + 3199`) of the messages of the whole edge arrays as the
    launch finds them: the body's entry `(p, j)` is the message of the block's edge `p`, whose two rows are rows
    `3200 t + p` of the arrays, and the weights' and biases' one block is the whole array. -/
theorem flushed0 (c : Dev nD) (t : Fin cfg0.N) :
    (dat0 (F := Ideal) V c).flushed 10 t = ((cfg0.win 10).blk t).view.read (Elt Ideal) (messages 800000 (V c main_v10) (V c main_arg2) (V c main_arg3) (V c main_arg4) (V c main_arg5) (V c main_arg6) (V c main_arg7) (V c main_arg8) (V c main_arg9) (V c main_arg10)) := by
  show (cfg0.win 10).cut (grid0.coords t) ((dat0 V c).after 10 t) = _
  rw [after0_10]
  unfold out0_10
  rw [View.canon_unit_zero hz2]
  simp only [View.ld_unit_zero (S := S3200x128) hz2, View.ld_unit_zero (S := S3200x32) hz2, View.ld_unit_zero (S := S32x128) hz2,
    View.ld_unit_zero (S := S128x128) hz2, View.ld_unit_zero (S := S128) hz1]
  obtain ⟨e00, e01, e10, e11, e20, e21, e30, e40, e41, e50, e60, e61, e70, e80, e81, e90, eo0, eo1⟩ := idx_facts0 t
  have ht : t.val < 250 := t.isLt
  funext y
  obtain ⟨p, q, rfl⟩ : ∃ (p : Fin 3200) (q : Fin 128), y = ix2 p q := ⟨y 0, y 1, eq_ix2 y⟩
  have hp : p.val < 3200 := p.isLt
  have hq : q.val < 128 := q.isLt
  refine (Cert.KernelIdeal.Payload.stored_at (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans ?_
  have hrow : ((cfg0.win 10).blk t).view.emb (ix2 p q) = ix2 (⟨t.val * 3200 + p.val, by omega⟩ : Fin 800000) q :=
    funext fun d => Fin.ext (by
      match d with
      | ⟨0, _⟩ => show win0_10.index t (0 : Fin 2) * 3200 + 1 * p.val = t.val * 3200 + p.val; omega
      | ⟨1, _⟩ => show win0_10.index t (1 : Fin 2) * 128 + 1 * q.val = q.val; omega)
  show _ = messages 800000 _ _ _ _ _ _ _ _ _ _ (((cfg0.win 10).blk t).view.emb (ix2 p q))
  rw [hrow, messages_at]
  have hx : (fun k : Fin 128 => iblk0 V c 0 t (ix2 p k)) = fun k => V c main_v10 (ix2 (⟨t.val * 3200 + p.val, by omega⟩ : Fin 800000) k) :=
    funext fun k => (show V c main_v10 (((cfg0.win 0).blk t).view.emb (ix2 p k)) = _ from congrArg _ (funext fun d => Fin.ext (by
      have hk : k.val < 128 := k.isLt
      match d with
      | ⟨0, _⟩ => show win0_0.index t (0 : Fin 2) * 3200 + 1 * p.val = t.val * 3200 + p.val; omega
      | ⟨1, _⟩ => show win0_0.index t (1 : Fin 2) * 128 + 1 * k.val = k.val; omega)))
  have ha : (fun k : Fin 32 => iblk0 V c 1 t (ix2 p k)) = fun k => V c main_arg2 (ix2 (⟨t.val * 3200 + p.val, by omega⟩ : Fin 800000) k) :=
    funext fun k => (show V c main_arg2 (((cfg0.win 1).blk t).view.emb (ix2 p k)) = _ from congrArg _ (funext fun d => Fin.ext (by
      have hk : k.val < 32 := k.isLt
      match d with
      | ⟨0, _⟩ => show win0_1.index t (0 : Fin 2) * 3200 + 1 * p.val = t.val * 3200 + p.val; omega
      | ⟨1, _⟩ => show win0_1.index t (1 : Fin 2) * 32 + 1 * k.val = k.val; omega)))
  have h2 : iblk0 V c 2 t = V c main_arg3 :=
    funext fun y => (show V c main_arg3 (((cfg0.win 2).blk t).view.emb y) = _ from congrArg _ (funext fun d => Fin.ext (by
      match d with
      | ⟨0, _⟩ => show win0_2.index t (0 : Fin 2) * 32 + 1 * (y 0).val = (y 0).val; omega
      | ⟨1, _⟩ => show win0_2.index t (1 : Fin 2) * 128 + 1 * (y 1).val = (y 1).val; omega)))
  have h3 : iblk0 V c 3 t = V c main_arg4 :=
    funext fun y => (show V c main_arg4 (((cfg0.win 3).blk t).view.emb y) = _ from congrArg _ (funext fun d => Fin.ext (by
      match d with
      | ⟨0, _⟩ => show win0_3.index t (0 : Fin 1) * 128 + 1 * (y 0).val = (y 0).val; omega)))
  have h4 : iblk0 V c 4 t = V c main_arg5 :=
    funext fun y => (show V c main_arg5 (((cfg0.win 4).blk t).view.emb y) = _ from congrArg _ (funext fun d => Fin.ext (by
      match d with
      | ⟨0, _⟩ => show win0_4.index t (0 : Fin 2) * 128 + 1 * (y 0).val = (y 0).val; omega
      | ⟨1, _⟩ => show win0_4.index t (1 : Fin 2) * 128 + 1 * (y 1).val = (y 1).val; omega)))
  have h5 : iblk0 V c 5 t = V c main_arg6 :=
    funext fun y => (show V c main_arg6 (((cfg0.win 5).blk t).view.emb y) = _ from congrArg _ (funext fun d => Fin.ext (by
      match d with
      | ⟨0, _⟩ => show win0_5.index t (0 : Fin 1) * 128 + 1 * (y 0).val = (y 0).val; omega)))
  have h6 : iblk0 V c 6 t = V c main_arg7 :=
    funext fun y => (show V c main_arg7 (((cfg0.win 6).blk t).view.emb y) = _ from congrArg _ (funext fun d => Fin.ext (by
      match d with
      | ⟨0, _⟩ => show win0_6.index t (0 : Fin 2) * 128 + 1 * (y 0).val = (y 0).val; omega
      | ⟨1, _⟩ => show win0_6.index t (1 : Fin 2) * 128 + 1 * (y 1).val = (y 1).val; omega)))
  have h7 : iblk0 V c 7 t = V c main_arg8 :=
    funext fun y => (show V c main_arg8 (((cfg0.win 7).blk t).view.emb y) = _ from congrArg _ (funext fun d => Fin.ext (by
      match d with
      | ⟨0, _⟩ => show win0_7.index t (0 : Fin 1) * 128 + 1 * (y 0).val = (y 0).val; omega)))
  have h8 : iblk0 V c 8 t = V c main_arg9 :=
    funext fun y => (show V c main_arg9 (((cfg0.win 8).blk t).view.emb y) = _ from congrArg _ (funext fun d => Fin.ext (by
      match d with
      | ⟨0, _⟩ => show win0_8.index t (0 : Fin 2) * 128 + 1 * (y 0).val = (y 0).val; omega
      | ⟨1, _⟩ => show win0_8.index t (1 : Fin 2) * 128 + 1 * (y 1).val = (y 1).val; omega)))
  have h9 : iblk0 V c 9 t = V c main_arg10 :=
    funext fun y => (show V c main_arg10 (((cfg0.win 9).blk t).view.emb y) = _ from congrArg _ (funext fun d => Fin.ext (by
      match d with
      | ⟨0, _⟩ => show win0_9.index t (0 : Fin 1) * 128 + 1 * (y 0).val = (y 0).val; omega)))
  exact message_congr hx ha h2 h3 h4 h5 h6 h7 h8 h9 q

/-- An index of the output array is in point `t`'s block iff each coordinate is in the block's range on its axis. -/
theorem mem_blk0 (t : Fin cfg0.N) (i : S800000x128.Idx) :
    i ∈ ((cfg0.win 10).blk t).view.set ↔ ∀ a : Fin 2, win0_10.index t a * S3200x128.size a ≤ (i a).val ∧ (i a).val < win0_10.index t a * S3200x128.size a + S3200x128.size a := by
  show i ∈ ((View.whole main_v18).slice (win0_10.rect t)).set ↔ _
  rw [View.set_slice_whole, Rect.mem_set_unit]
  exact Iff.rfl

/-- Every edge row lies in the block of the point `row / 3200`, which is written back. -/
theorem cover0 (i : S800000x128.Idx) :
    ∃ t : Fin cfg0.N, (cfg0.win 10).flush t = true ∧ i ∈ ((cfg0.win 10).blk t).view.set := by
  have hi0 : (i 0).val < 800000 := (i 0).isLt
  have hi1 : (i 1).val < 128 := (i 1).isLt
  refine ⟨⟨(i 0).val / 3200, by show (i 0).val / 3200 < 250; omega⟩, flush0_10 _, ?_⟩
  rw [mem_blk0]
  obtain ⟨-, -, -, -, -, -, -, -, -, -, -, -, -, -, -, -, eo0, eo1⟩ := idx_facts0 ⟨(i 0).val / 3200, by show (i 0).val / 3200 < 250; omega⟩
  have eo0' : win0_10.index ⟨(i 0).val / 3200, by show (i 0).val / 3200 < 250; omega⟩ (0 : Fin 2) = (i 0).val / 3200 := eo0
  intro a
  match a with
  | ⟨0, _⟩ => show win0_10.index _ (0 : Fin 2) * 3200 ≤ (i 0).val ∧ (i 0).val < win0_10.index _ (0 : Fin 2) * 3200 + 3200; omega
  | ⟨1, _⟩ => show win0_10.index _ (1 : Fin 2) * 128 ≤ (i 1).val ∧ (i 1).val < win0_10.index _ (1 : Fin 2) * 128 + 128; omega

/-- THE OUTPUT ARRAY of launch 0 after its 250 points: the messages of the edge arrays as the launch finds them. -/
theorem final0 (c : Dev nD) :
    (dat0 (F := Ideal) V c).arrAt 10 cfg0.N = (messages 800000 (V c main_v10) (V c main_arg2) (V c main_arg3) (V c main_arg4) (V c main_arg5) (V c main_arg6) (V c main_arg7) (V c main_arg8) (V c main_arg9) (V c main_arg10)) :=
  (dat0 (F := Ideal) V c).arrAt_eq_of_cover 10 _ (fun t _ => flushed0 V c t) (cover0)

/-! ## Launch 1 -/

/-- The printed index maps of launch 1, decided over its 250 points: the two edge-indexed inputs and the output move
    with the point along the rows, every weight and bias stays at its one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = t.val ∧ win1_10.index t (1 : Fin 2) = 0 :=
  (by decide +kernel : ∀ t : Fin grid1.N, _)

/-- What point `t` writes back is block `t` (rows `3200 t … 3200 t + 3199`) of the messages of the whole edge arrays as the
    launch finds them: the body's entry `(p, j)` is the message of the block's edge `p`, whose two rows are rows
    `3200 t + p` of the arrays, and the weights' and biases' one block is the whole array. -/
theorem flushed1 (c : Dev nD) (t : Fin cfg1.N) :
    (dat1 (F := Ideal) V c).flushed 10 t = ((cfg1.win 10).blk t).view.read (Elt Ideal) (messages 800000 (V c main_v17) (V c main_arg2) (V c main_arg11) (V c main_arg12) (V c main_arg13) (V c main_arg14) (V c main_arg15) (V c main_arg16) (V c main_arg17) (V c main_arg18)) := by
  show (cfg1.win 10).cut (grid1.coords t) ((dat1 V c).after 10 t) = _
  rw [after1_10]
  unfold out1_10
  rw [View.canon_unit_zero hz2]
  simp only [View.ld_unit_zero (S := S3200x128) hz2, View.ld_unit_zero (S := S3200x32) hz2, View.ld_unit_zero (S := S32x128) hz2,
    View.ld_unit_zero (S := S128x128) hz2, View.ld_unit_zero (S := S128) hz1]
  obtain ⟨e00, e01, e10, e11, e20, e21, e30, e40, e41, e50, e60, e61, e70, e80, e81, e90, eo0, eo1⟩ := idx_facts1 t
  have ht : t.val < 250 := t.isLt
  funext y
  obtain ⟨p, q, rfl⟩ : ∃ (p : Fin 3200) (q : Fin 128), y = ix2 p q := ⟨y 0, y 1, eq_ix2 y⟩
  have hp : p.val < 3200 := p.isLt
  have hq : q.val < 128 := q.isLt
  refine (Cert.KernelIdeal.Payload.stored_at' (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p q).trans ?_
  have hrow : ((cfg1.win 10).blk t).view.emb (ix2 p q) = ix2 (⟨t.val * 3200 + p.val, by omega⟩ : Fin 800000) q :=
    funext fun d => Fin.ext (by
      match d with
      | ⟨0, _⟩ => show win1_10.index t (0 : Fin 2) * 3200 + 1 * p.val = t.val * 3200 + p.val; omega
      | ⟨1, _⟩ => show win1_10.index t (1 : Fin 2) * 128 + 1 * q.val = q.val; omega)
  show _ = messages 800000 _ _ _ _ _ _ _ _ _ _ (((cfg1.win 10).blk t).view.emb (ix2 p q))
  rw [hrow, messages_at]
  have hx : (fun k : Fin 128 => iblk1 V c 0 t (ix2 p k)) = fun k => V c main_v17 (ix2 (⟨t.val * 3200 + p.val, by omega⟩ : Fin 800000) k) :=
    funext fun k => (show V c main_v17 (((cfg1.win 0).blk t).view.emb (ix2 p k)) = _ from congrArg _ (funext fun d => Fin.ext (by
      have hk : k.val < 128 := k.isLt
      match d with
      | ⟨0, _⟩ => show win1_0.index t (0 : Fin 2) * 3200 + 1 * p.val = t.val * 3200 + p.val; omega
      | ⟨1, _⟩ => show win1_0.index t (1 : Fin 2) * 128 + 1 * k.val = k.val; omega)))
  have ha : (fun k : Fin 32 => iblk1 V c 1 t (ix2 p k)) = fun k => V c main_arg2 (ix2 (⟨t.val * 3200 + p.val, by omega⟩ : Fin 800000) k) :=
    funext fun k => (show V c main_arg2 (((cfg1.win 1).blk t).view.emb (ix2 p k)) = _ from congrArg _ (funext fun d => Fin.ext (by
      have hk : k.val < 32 := k.isLt
      match d with
      | ⟨0, _⟩ => show win1_1.index t (0 : Fin 2) * 3200 + 1 * p.val = t.val * 3200 + p.val; omega
      | ⟨1, _⟩ => show win1_1.index t (1 : Fin 2) * 32 + 1 * k.val = k.val; omega)))
  have h2 : iblk1 V c 2 t = V c main_arg11 :=
    funext fun y => (show V c main_arg11 (((cfg1.win 2).blk t).view.emb y) = _ from congrArg _ (funext fun d => Fin.ext (by
      match d with
      | ⟨0, _⟩ => show win1_2.index t (0 : Fin 2) * 32 + 1 * (y 0).val = (y 0).val; omega
      | ⟨1, _⟩ => show win1_2.index t (1 : Fin 2) * 128 + 1 * (y 1).val = (y 1).val; omega)))
  have h3 : iblk1 V c 3 t = V c main_arg12 :=
    funext fun y => (show V c main_arg12 (((cfg1.win 3).blk t).view.emb y) = _ from congrArg _ (funext fun d => Fin.ext (by
      match d with
      | ⟨0, _⟩ => show win1_3.index t (0 : Fin 1) * 128 + 1 * (y 0).val = (y 0).val; omega)))
  have h4 : iblk1 V c 4 t = V c main_arg13 :=
    funext fun y => (show V c main_arg13 (((cfg1.win 4).blk t).view.emb y) = _ from congrArg _ (funext fun d => Fin.ext (by
      match d with
      | ⟨0, _⟩ => show win1_4.index t (0 : Fin 2) * 128 + 1 * (y 0).val = (y 0).val; omega
      | ⟨1, _⟩ => show win1_4.index t (1 : Fin 2) * 128 + 1 * (y 1).val = (y 1).val; omega)))
  have h5 : iblk1 V c 5 t = V c main_arg14 :=
    funext fun y => (show V c main_arg14 (((cfg1.win 5).blk t).view.emb y) = _ from congrArg _ (funext fun d => Fin.ext (by
      match d with
      | ⟨0, _⟩ => show win1_5.index t (0 : Fin 1) * 128 + 1 * (y 0).val = (y 0).val; omega)))
  have h6 : iblk1 V c 6 t = V c main_arg15 :=
    funext fun y => (show V c main_arg15 (((cfg1.win 6).blk t).view.emb y) = _ from congrArg _ (funext fun d => Fin.ext (by
      match d with
      | ⟨0, _⟩ => show win1_6.index t (0 : Fin 2) * 128 + 1 * (y 0).val = (y 0).val; omega
      | ⟨1, _⟩ => show win1_6.index t (1 : Fin 2) * 128 + 1 * (y 1).val = (y 1).val; omega)))
  have h7 : iblk1 V c 7 t = V c main_arg16 :=
    funext fun y => (show V c main_arg16 (((cfg1.win 7).blk t).view.emb y) = _ from congrArg _ (funext fun d => Fin.ext (by
      match d with
      | ⟨0, _⟩ => show win1_7.index t (0 : Fin 1) * 128 + 1 * (y 0).val = (y 0).val; omega)))
  have h8 : iblk1 V c 8 t = V c main_arg17 :=
    funext fun y => (show V c main_arg17 (((cfg1.win 8).blk t).view.emb y) = _ from congrArg _ (funext fun d => Fin.ext (by
      match d with
      | ⟨0, _⟩ => show win1_8.index t (0 : Fin 2) * 128 + 1 * (y 0).val = (y 0).val; omega
      | ⟨1, _⟩ => show win1_8.index t (1 : Fin 2) * 128 + 1 * (y 1).val = (y 1).val; omega)))
  have h9 : iblk1 V c 9 t = V c main_arg18 :=
    funext fun y => (show V c main_arg18 (((cfg1.win 9).blk t).view.emb y) = _ from congrArg _ (funext fun d => Fin.ext (by
      match d with
      | ⟨0, _⟩ => show win1_9.index t (0 : Fin 1) * 128 + 1 * (y 0).val = (y 0).val; omega)))
  exact message_congr hx ha h2 h3 h4 h5 h6 h7 h8 h9 q

/-- An index of the output array is in point `t`'s block iff each coordinate is in the block's range on its axis. -/
theorem mem_blk1 (t : Fin cfg1.N) (i : S800000x128.Idx) :
    i ∈ ((cfg1.win 10).blk t).view.set ↔ ∀ a : Fin 2, win1_10.index t a * S3200x128.size a ≤ (i a).val ∧ (i a).val < win1_10.index t a * S3200x128.size a + S3200x128.size a := by
  show i ∈ ((View.whole main_v19).slice (win1_10.rect t)).set ↔ _
  rw [View.set_slice_whole, Rect.mem_set_unit]
  exact Iff.rfl

/-- Every edge row lies in the block of the point `row / 3200`, which is written back. -/
theorem cover1 (i : S800000x128.Idx) :
    ∃ t : Fin cfg1.N, (cfg1.win 10).flush t = true ∧ i ∈ ((cfg1.win 10).blk t).view.set := by
  have hi0 : (i 0).val < 800000 := (i 0).isLt
  have hi1 : (i 1).val < 128 := (i 1).isLt
  refine ⟨⟨(i 0).val / 3200, by show (i 0).val / 3200 < 250; omega⟩, flush1_10 _, ?_⟩
  rw [mem_blk1]
  obtain ⟨-, -, -, -, -, -, -, -, -, -, -, -, -, -, -, -, eo0, eo1⟩ := idx_facts1 ⟨(i 0).val / 3200, by show (i 0).val / 3200 < 250; omega⟩
  have eo0' : win1_10.index ⟨(i 0).val / 3200, by show (i 0).val / 3200 < 250; omega⟩ (0 : Fin 2) = (i 0).val / 3200 := eo0
  intro a
  match a with
  | ⟨0, _⟩ => show win1_10.index _ (0 : Fin 2) * 3200 ≤ (i 0).val ∧ (i 0).val < win1_10.index _ (0 : Fin 2) * 3200 + 3200; omega
  | ⟨1, _⟩ => show win1_10.index _ (1 : Fin 2) * 128 ≤ (i 1).val ∧ (i 1).val < win1_10.index _ (1 : Fin 2) * 128 + 128; omega

/-- THE OUTPUT ARRAY of launch 1 after its 250 points: the messages of the edge arrays as the launch finds them. -/
theorem final1 (c : Dev nD) :
    (dat1 (F := Ideal) V c).arrAt 10 cfg1.N = (messages 800000 (V c main_v17) (V c main_arg2) (V c main_arg11) (V c main_arg12) (V c main_arg13) (V c main_arg14) (V c main_arg15) (V c main_arg16) (V c main_arg17) (V c main_arg18)) :=
  (dat1 (F := Ideal) V c).arrAt_eq_of_cover 10 _ (fun t _ => flushed1 V c t) (cover1)

end Cert.KernelIdeal.RegionArray

end
-- ==== Proof.RefMessages.lean ====
/-
  The reference's edge messages, read at one entry.

  The reference computes the messages of all 800000 edges at once: the attribute network on the whole attribute array,
  the gathered node rows added, the message network on the sum. Read at edge `p`, unit `j`, each `dot_general` is the
  sum over its contracted coordinate of row `p` of the left operand against column `j` of the weights, each bias
  (broadcast first to `1 × 128`, then over the edges) is the bias at `j`, and the rectifier is `max · 0`: the stage is
  `Cert.EdgeMessage.message` of row `p` of the gathered rows and row `p` of the attributes. Both directions are the
  same computation on different weights and a different gather.
-/
import proofs.«115802_j53395033424421_1_alg».proof.Proof.Gen.ReferenceIdeal.Read
import proofs.«115802_j53395033424421_1_alg».proof.Proof.EdgeMessage

noncomputable section

namespace Cert.ReferenceIdeal.RefMessages

open Idealize.ShloMosaic Idealize.ShloMosaic.ValueIdx
open Cert.ReferenceIdeal Cert.ReferenceIdeal.Read Cert.EdgeMessage

/-- A float array and an integer array of the reference, at the extended reals. -/
abbrev T (s : Shape) : Type := (⟨s, .f32⟩ : BufTy).Contents (Elt Ideal)
abbrev I (s : Shape) : Type := (⟨s, .i32⟩ : BufTy).Contents (Elt Ideal)

/-! ## The forward direction -/

/-- The attribute network's hidden layer, as the reference computes it: `max(a · We1 + be1, 0)`. -/
theorem hidden_forward (a : T S800000x32) (We1 : T S32x128) (be1 : T S128) (p : Fin 800000) (j : Fin 128) :
    val_main_v8 (F := Ideal) a We1 be1 (ix2 p j) = denseRelu (fun k => a (ix2 p k)) We1 be1 j := by
  rw [val_main_v8_apply, val_main_v7_apply, val_main_v4_apply, val_main_v6_apply, val_main_v5_apply,
    val_main_call0_v0_apply, val_main_call0_cst_apply]
  have el : ∀ k, lidx_main_v4 (ix2 p j) k = ix2 p k := fun k => funext fun d => Fin.ext (by match d with | ⟨0, _⟩ => rfl | ⟨1, _⟩ => rfl)
  have er : ∀ k, ridx_main_v4 (ix2 p j) k = ix2 k j := fun k => funext fun d => Fin.ext (by match d with | ⟨0, _⟩ => rfl | ⟨1, _⟩ => rfl)
  have eb : idx_main_v5 (idx_main_v6 (ix2 p j)) = ix1 j := funext fun d => Fin.ext (by match d with | ⟨0, _⟩ => rfl)
  simp only [el, er, eb]
  rfl

/-- The projected attributes: `hidden · We2 + be2`. -/
theorem projected_forward (a : T S800000x32) (We1 : T S32x128) (be1 : T S128) (We2 : T S128x128) (be2 : T S128) (p : Fin 800000) (j : Fin 128) :
    val_main_v12 (F := Ideal) a We1 be1 We2 be2 (ix2 p j) = project (fun k => a (ix2 p k)) We1 be1 We2 be2 j := by
  rw [val_main_v12_apply, val_main_v9_apply, val_main_v11_apply, val_main_v10_apply]
  have el : ∀ k, lidx_main_v9 (ix2 p j) k = ix2 p k := fun k => funext fun d => Fin.ext (by match d with | ⟨0, _⟩ => rfl | ⟨1, _⟩ => rfl)
  have er : ∀ k, ridx_main_v9 (ix2 p j) k = ix2 k j := fun k => funext fun d => Fin.ext (by match d with | ⟨0, _⟩ => rfl | ⟨1, _⟩ => rfl)
  have eb : idx_main_v10 (idx_main_v11 (ix2 p j)) = ix1 j := funext fun d => Fin.ext (by match d with | ⟨0, _⟩ => rfl)
  simp only [el, er, eb, hidden_forward]
  rfl

/-- The message network's hidden layer over the gathered rows plus the projected attributes. -/
theorem mixed_forward (x0 : T S100000x128) (x1 : I S2x800000) (a : T S800000x32) (We1 : T S32x128) (be1 : T S128) (We2 : T S128x128) (be2 : T S128)
    (Wm1 : T S128x128) (bm1 : T S128) (p : Fin 800000) (j : Fin 128) :
    val_main_v25 (F := Ideal) x0 x1 a We1 be1 We2 be2 Wm1 bm1 (ix2 p j)
      = denseRelu (fun k => val_main_v19 (F := Ideal) x0 x1 (ix2 p k) + project (fun k' => a (ix2 p k')) We1 be1 We2 be2 k) Wm1 bm1 j := by
  rw [val_main_v25_apply, val_main_v24_apply, val_main_v21_apply, val_main_v23_apply, val_main_v22_apply,
    val_main_call1_v0_apply, val_main_call1_cst_apply]
  have el : ∀ k, lidx_main_v21 (ix2 p j) k = ix2 p k := fun k => funext fun d => Fin.ext (by match d with | ⟨0, _⟩ => rfl | ⟨1, _⟩ => rfl)
  have er : ∀ k, ridx_main_v21 (ix2 p j) k = ix2 k j := fun k => funext fun d => Fin.ext (by match d with | ⟨0, _⟩ => rfl | ⟨1, _⟩ => rfl)
  have eb : idx_main_v22 (idx_main_v23 (ix2 p j)) = ix1 j := funext fun d => Fin.ext (by match d with | ⟨0, _⟩ => rfl)
  simp only [el, er, eb, val_main_v20_apply, projected_forward]
  rfl

/-- The reference's messages of the forward direction are `messages` of the gathered rows and the attributes. -/
theorem messages_forward (x0 : T S100000x128) (x1 : I S2x800000) (a : T S800000x32) (We1 : T S32x128) (be1 : T S128) (We2 : T S128x128) (be2 : T S128)
    (Wm1 : T S128x128) (bm1 : T S128) (Wm2 : T S128x128) (bm2 : T S128) :
    val_main_v29 (F := Ideal) x0 x1 a We1 be1 We2 be2 Wm1 bm1 Wm2 bm2
      = messages 800000 (val_main_v19 (F := Ideal) x0 x1) a We1 be1 We2 be2 Wm1 bm1 Wm2 bm2 := by
  funext i
  obtain ⟨p, j, rfl⟩ : ∃ (p : Fin 800000) (j : Fin 128), i = ix2 p j := ⟨i 0, i 1, eq_ix2 i⟩
  rw [messages_at, val_main_v29_apply, val_main_v26_apply, val_main_v28_apply, val_main_v27_apply]
  have el : ∀ k, lidx_main_v26 (ix2 p j) k = ix2 p k := fun k => funext fun d => Fin.ext (by match d with | ⟨0, _⟩ => rfl | ⟨1, _⟩ => rfl)
  have er : ∀ k, ridx_main_v26 (ix2 p j) k = ix2 k j := fun k => funext fun d => Fin.ext (by match d with | ⟨0, _⟩ => rfl | ⟨1, _⟩ => rfl)
  have eb : idx_main_v27 (idx_main_v28 (ix2 p j)) = ix1 j := funext fun d => Fin.ext (by match d with | ⟨0, _⟩ => rfl)
  simp only [el, er, eb, mixed_forward]
  rfl

/-! ## The backward direction -/

/-- The attribute network's hidden layer, as the reference computes it: `max(a · We1 + be1, 0)`. -/
theorem hidden_backward (a : T S800000x32) (We1 : T S32x128) (be1 : T S128) (p : Fin 800000) (j : Fin 128) :
    val_main_v37 (F := Ideal) a We1 be1 (ix2 p j) = denseRelu (fun k => a (ix2 p k)) We1 be1 j := by
  rw [val_main_v37_apply, val_main_v36_apply, val_main_v33_apply, val_main_v35_apply, val_main_v34_apply,
    val_main_call2_v0_apply, val_main_call2_cst_apply]
  have el : ∀ k, lidx_main_v33 (ix2 p j) k = ix2 p k := fun k => funext fun d => Fin.ext (by match d with | ⟨0, _⟩ => rfl | ⟨1, _⟩ => rfl)
  have er : ∀ k, ridx_main_v33 (ix2 p j) k = ix2 k j := fun k => funext fun d => Fin.ext (by match d with | ⟨0, _⟩ => rfl | ⟨1, _⟩ => rfl)
  have eb : idx_main_v34 (idx_main_v35 (ix2 p j)) = ix1 j := funext fun d => Fin.ext (by match d with | ⟨0, _⟩ => rfl)
  simp only [el, er, eb]
  rfl

/-- The projected attributes: `hidden · We2 + be2`. -/
theorem projected_backward (a : T S800000x32) (We1 : T S32x128) (be1 : T S128) (We2 : T S128x128) (be2 : T S128) (p : Fin 800000) (j : Fin 128) :
    val_main_v41 (F := Ideal) a We1 be1 We2 be2 (ix2 p j) = project (fun k => a (ix2 p k)) We1 be1 We2 be2 j := by
  rw [val_main_v41_apply, val_main_v38_apply, val_main_v40_apply, val_main_v39_apply]
  have el : ∀ k, lidx_main_v38 (ix2 p j) k = ix2 p k := fun k => funext fun d => Fin.ext (by match d with | ⟨0, _⟩ => rfl | ⟨1, _⟩ => rfl)
  have er : ∀ k, ridx_main_v38 (ix2 p j) k = ix2 k j := fun k => funext fun d => Fin.ext (by match d with | ⟨0, _⟩ => rfl | ⟨1, _⟩ => rfl)
  have eb : idx_main_v39 (idx_main_v40 (ix2 p j)) = ix1 j := funext fun d => Fin.ext (by match d with | ⟨0, _⟩ => rfl)
  simp only [el, er, eb, hidden_backward]
  rfl

/-- The message network's hidden layer over the gathered rows plus the projected attributes. -/
theorem mixed_backward (x0 : T S100000x128) (x1 : I S2x800000) (a : T S800000x32) (We1 : T S32x128) (be1 : T S128) (We2 : T S128x128) (be2 : T S128)
    (Wm1 : T S128x128) (bm1 : T S128) (p : Fin 800000) (j : Fin 128) :
    val_main_v54 (F := Ideal) x0 x1 a We1 be1 We2 be2 Wm1 bm1 (ix2 p j)
      = denseRelu (fun k => val_main_v48 (F := Ideal) x0 x1 (ix2 p k) + project (fun k' => a (ix2 p k')) We1 be1 We2 be2 k) Wm1 bm1 j := by
  rw [val_main_v54_apply, val_main_v53_apply, val_main_v50_apply, val_main_v52_apply, val_main_v51_apply,
    val_main_call3_v0_apply, val_main_call3_cst_apply]
  have el : ∀ k, lidx_main_v50 (ix2 p j) k = ix2 p k := fun k => funext fun d => Fin.ext (by match d with | ⟨0, _⟩ => rfl | ⟨1, _⟩ => rfl)
  have er : ∀ k, ridx_main_v50 (ix2 p j) k = ix2 k j := fun k => funext fun d => Fin.ext (by match d with | ⟨0, _⟩ => rfl | ⟨1, _⟩ => rfl)
  have eb : idx_main_v51 (idx_main_v52 (ix2 p j)) = ix1 j := funext fun d => Fin.ext (by match d with | ⟨0, _⟩ => rfl)
  simp only [el, er, eb, val_main_v49_apply, projected_backward]
  rfl

/-- The reference's messages of the backward direction are `messages` of the gathered rows and the attributes. -/
theorem messages_backward (x0 : T S100000x128) (x1 : I S2x800000) (a : T S800000x32) (We1 : T S32x128) (be1 : T S128) (We2 : T S128x128) (be2 : T S128)
    (Wm1 : T S128x128) (bm1 : T S128) (Wm2 : T S128x128) (bm2 : T S128) :
    val_main_v58 (F := Ideal) x0 x1 a We1 be1 We2 be2 Wm1 bm1 Wm2 bm2
      = messages 800000 (val_main_v48 (F := Ideal) x0 x1) a We1 be1 We2 be2 Wm1 bm1 Wm2 bm2 := by
  funext i
  obtain ⟨p, j, rfl⟩ : ∃ (p : Fin 800000) (j : Fin 128), i = ix2 p j := ⟨i 0, i 1, eq_ix2 i⟩
  rw [messages_at, val_main_v58_apply, val_main_v55_apply, val_main_v57_apply, val_main_v56_apply]
  have el : ∀ k, lidx_main_v55 (ix2 p j) k = ix2 p k := fun k => funext fun d => Fin.ext (by match d with | ⟨0, _⟩ => rfl | ⟨1, _⟩ => rfl)
  have er : ∀ k, ridx_main_v55 (ix2 p j) k = ix2 k j := fun k => funext fun d => Fin.ext (by match d with | ⟨0, _⟩ => rfl | ⟨1, _⟩ => rfl)
  have eb : idx_main_v56 (idx_main_v57 (ix2 p j)) = ix1 j := funext fun d => Fin.ext (by match d with | ⟨0, _⟩ => rfl)
  simp only [el, er, eb, mixed_backward]
  rfl

end Cert.ReferenceIdeal.RefMessages

end
-- ==== Proof.KernelValue.lean ====
/-
  The idealized kernel's result, as a term over its arguments.

  The last stretch of host operations scatter-adds the two launches' output arrays to the nodes (the first at the
  edges' second endpoints, the second at their first endpoints) and mixes the two sums with `sigmoid(alpha)` and
  `1 - sigmoid(alpha)`. Each launch's output array is the messages of the rows gathered before the launches and of the
  attribute array (Proof/RegionArray.lean), which is what the reference's own stage for that direction holds
  (Proof/RefMessages.lean); the gathers, the endpoint lists, the scatter-adds and the mix are the same operations in
  both programs. So the result buffer ends at the reference's composed term of the arguments.
-/
import proofs.«115802_j53395033424421_1_alg».proof.Proof.Gen.KernelIdeal.Frame
import proofs.«115802_j53395033424421_1_alg».proof.Proof.Gen.ReferenceIdeal.Read
import proofs.«115802_j53395033424421_1_alg».proof.Proof.RegionArray
import proofs.«115802_j53395033424421_1_alg».proof.Proof.RefMessages
import Idealize.ShloMosaic.Lib.StableHlo.Run

set_option maxRecDepth 16384

noncomputable section

namespace Cert.KernelIdeal.Result

open Idealize.ShloMosaic Idealize.ShloMosaic.TcCoe Idealize.ShloMosaic.StableHlo Idealize.SL.Sem
open Idealize.ShloMosaic.Pipeline (Dat Cfg Window)
open Cert.KernelIdeal Cert.KernelIdeal.Gen Cert.EdgeMessage

variable (m : (ℓ : Loc nD τ sig) → Buf (Elt Ideal) ℓ) (ρ : Dev nD → PrngReg)

/-! ## What the launches are entered from -/

/-- The first stretch of host operations writes no argument. -/

theorem W1_arg2 (c : Dev nD) : W1 m ρ c (Proc.devRef .tc main_arg2) = m ((c.tc : Thread nD τ).loc main_arg2) := by
  show StableHlo.after hostOps0 (W0 m ρ c) (Proc.devRef .tc main_arg2) = _
  after_results

theorem W1_arg3 (c : Dev nD) : W1 m ρ c (Proc.devRef .tc main_arg3) = m ((c.tc : Thread nD τ).loc main_arg3) := by
  show StableHlo.after hostOps0 (W0 m ρ c) (Proc.devRef .tc main_arg3) = _
  after_results

theorem W1_arg4 (c : Dev nD) : W1 m ρ c (Proc.devRef .tc main_arg4) = m ((c.tc : Thread nD τ).loc main_arg4) := by
  show StableHlo.after hostOps0 (W0 m ρ c) (Proc.devRef .tc main_arg4) = _
  after_results

theorem W1_arg5 (c : Dev nD) : W1 m ρ c (Proc.devRef .tc main_arg5) = m ((c.tc : Thread nD τ).loc main_arg5) := by
  show StableHlo.after hostOps0 (W0 m ρ c) (Proc.devRef .tc main_arg5) = _
  after_results

theorem W1_arg6 (c : Dev nD) : W1 m ρ c (Proc.devRef .tc main_arg6) = m ((c.tc : Thread nD τ).loc main_arg6) := by
  show StableHlo.after hostOps0 (W0 m ρ c) (Proc.devRef .tc main_arg6) = _
  after_results

theorem W1_arg7 (c : Dev nD) : W1 m ρ c (Proc.devRef .tc main_arg7) = m ((c.tc : Thread nD τ).loc main_arg7) := by
  show StableHlo.after hostOps0 (W0 m ρ c) (Proc.devRef .tc main_arg7) = _
  after_results

theorem W1_arg8 (c : Dev nD) : W1 m ρ c (Proc.devRef .tc main_arg8) = m ((c.tc : Thread nD τ).loc main_arg8) := by
  show StableHlo.after hostOps0 (W0 m ρ c) (Proc.devRef .tc main_arg8) = _
  after_results

theorem W1_arg9 (c : Dev nD) : W1 m ρ c (Proc.devRef .tc main_arg9) = m ((c.tc : Thread nD τ).loc main_arg9) := by
  show StableHlo.after hostOps0 (W0 m ρ c) (Proc.devRef .tc main_arg9) = _
  after_results

theorem W1_arg10 (c : Dev nD) : W1 m ρ c (Proc.devRef .tc main_arg10) = m ((c.tc : Thread nD τ).loc main_arg10) := by
  show StableHlo.after hostOps0 (W0 m ρ c) (Proc.devRef .tc main_arg10) = _
  after_results

theorem W1_arg11 (c : Dev nD) : W1 m ρ c (Proc.devRef .tc main_arg11) = m ((c.tc : Thread nD τ).loc main_arg11) := by
  show StableHlo.after hostOps0 (W0 m ρ c) (Proc.devRef .tc main_arg11) = _
  after_results

theorem W1_arg12 (c : Dev nD) : W1 m ρ c (Proc.devRef .tc main_arg12) = m ((c.tc : Thread nD τ).loc main_arg12) := by
  show StableHlo.after hostOps0 (W0 m ρ c) (Proc.devRef .tc main_arg12) = _
  after_results

theorem W1_arg13 (c : Dev nD) : W1 m ρ c (Proc.devRef .tc main_arg13) = m ((c.tc : Thread nD τ).loc main_arg13) := by
  show StableHlo.after hostOps0 (W0 m ρ c) (Proc.devRef .tc main_arg13) = _
  after_results

theorem W1_arg14 (c : Dev nD) : W1 m ρ c (Proc.devRef .tc main_arg14) = m ((c.tc : Thread nD τ).loc main_arg14) := by
  show StableHlo.after hostOps0 (W0 m ρ c) (Proc.devRef .tc main_arg14) = _
  after_results

theorem W1_arg15 (c : Dev nD) : W1 m ρ c (Proc.devRef .tc main_arg15) = m ((c.tc : Thread nD τ).loc main_arg15) := by
  show StableHlo.after hostOps0 (W0 m ρ c) (Proc.devRef .tc main_arg15) = _
  after_results

theorem W1_arg16 (c : Dev nD) : W1 m ρ c (Proc.devRef .tc main_arg16) = m ((c.tc : Thread nD τ).loc main_arg16) := by
  show StableHlo.after hostOps0 (W0 m ρ c) (Proc.devRef .tc main_arg16) = _
  after_results

theorem W1_arg17 (c : Dev nD) : W1 m ρ c (Proc.devRef .tc main_arg17) = m ((c.tc : Thread nD τ).loc main_arg17) := by
  show StableHlo.after hostOps0 (W0 m ρ c) (Proc.devRef .tc main_arg17) = _
  after_results

theorem W1_arg18 (c : Dev nD) : W1 m ρ c (Proc.devRef .tc main_arg18) = m ((c.tc : Thread nD τ).loc main_arg18) := by
  show StableHlo.after hostOps0 (W0 m ρ c) (Proc.devRef .tc main_arg18) = _
  after_results

/-- The rows gathered at the edges' first endpoints, as the reference writes that gather. -/
theorem W1_v10 (c : Dev nD) : W1 m ρ c (Proc.devRef .tc main_v10) = Cert.ReferenceIdeal.Read.val_main_v19 (F := Ideal) (m ((c.tc : Thread nD τ).loc main_arg0)) (m ((c.tc : Thread nD τ).loc main_arg1)) := by
  show StableHlo.after hostOps0 (W0 m ρ c) (Proc.devRef .tc main_v10) = _
  after_results
  rfl

set_option maxHeartbeats 4000000 in
/-- The rows gathered at the edges' second endpoints. -/
theorem W1_v17 (c : Dev nD) : W1 m ρ c (Proc.devRef .tc main_v17) = Cert.ReferenceIdeal.Read.val_main_v48 (F := Ideal) (m ((c.tc : Thread nD τ).loc main_arg0)) (m ((c.tc : Thread nD τ).loc main_arg1)) := by
  show StableHlo.after hostOps0 (W0 m ρ c) (Proc.devRef .tc main_v17) = _
  after_results_simp
  rfl

/-- The list of first endpoints, and of second endpoints. -/
theorem W1_v1 (c : Dev nD) : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results
  rfl
theorem W1_v3 (c : Dev nD) : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results
  rfl

/-- The first launch writes its own output array only: a buffer that is none of its arrays is as entered. -/
theorem V2_of_ne (c : Dev nD) (b : Ref sig .tc) (hb : ∀ w, Pipeline.arrRef spec0 w ≠ b) :
    V2 m ρ c b = W1 m ρ c (Proc.devRef .tc b) := W2_of_ne m ρ c b hb

/-- The attribute array is an input of the first launch too: it ends as entered. -/
theorem V2_arg2 (c : Dev nD) : V2 m ρ c main_arg2 = m ((c.tc : Thread nD τ).loc main_arg2) :=
  (W2_arr m ρ c 1).trans ((((dat0 (V1 m ρ) c).arrAt_in 1 rfl _).trans (A_eq0 (V1 m ρ) c 1)).trans (W1_arg2 m ρ c))

/-! ## The two launches' output arrays -/

/-- After the first launch its output array holds the reference's messages of the forward direction. -/
theorem out0 (c : Dev nD) :
    W3 m ρ c (Proc.devRef .tc main_v18)
      = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W3_of_ne m ρ c main_v18 (by decide)).trans ((W2_arr m ρ c 10).trans ((Cert.KernelIdeal.RegionArray.final0 (V1 m ρ) c).trans ?_))
  rw [Cert.ReferenceIdeal.RefMessages.messages_forward]
  show messages 800000 (W1 m ρ c (Proc.devRef .tc main_v10)) (W1 m ρ c (Proc.devRef .tc main_arg2)) (W1 m ρ c (Proc.devRef .tc main_arg3))
    (W1 m ρ c (Proc.devRef .tc main_arg4)) (W1 m ρ c (Proc.devRef .tc main_arg5)) (W1 m ρ c (Proc.devRef .tc main_arg6))
    (W1 m ρ c (Proc.devRef .tc main_arg7)) (W1 m ρ c (Proc.devRef .tc main_arg8)) (W1 m ρ c (Proc.devRef .tc main_arg9))
    (W1 m ρ c (Proc.devRef .tc main_arg10)) = _
  rw [W1_v10, W1_arg2, W1_arg3, W1_arg4, W1_arg5, W1_arg6, W1_arg7, W1_arg8, W1_arg9, W1_arg10]

/-- After the second launch its output array holds the reference's messages of the backward direction. -/
theorem out1 (c : Dev nD) :
    W3 m ρ c (Proc.devRef .tc main_v19)
      = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  refine (W3_arr m ρ c 10).trans ((Cert.KernelIdeal.RegionArray.final1 (V2 m ρ) c).trans ?_)
  rw [Cert.ReferenceIdeal.RefMessages.messages_backward, V2_arg2,
    V2_of_ne m ρ c main_v17 (by decide), V2_of_ne m ρ c main_arg11 (by decide), V2_of_ne m ρ c main_arg12 (by decide),
    V2_of_ne m ρ c main_arg13 (by decide), V2_of_ne m ρ c main_arg14 (by decide), V2_of_ne m ρ c main_arg15 (by decide),
    V2_of_ne m ρ c main_arg16 (by decide), V2_of_ne m ρ c main_arg17 (by decide), V2_of_ne m ρ c main_arg18 (by decide),
    W1_v17, W1_arg11, W1_arg12, W1_arg13, W1_arg14, W1_arg15, W1_arg16, W1_arg17, W1_arg18]

/-- The endpoint lists and `alpha` pass through both launches untouched. -/
theorem W3_v1 (c : Dev nD) : W3 m ρ c (Proc.devRef .tc main_v1) = Cert.ReferenceIdeal.Read.val_main_v1 (F := Ideal) (m ((c.tc : Thread nD τ).loc main_arg1)) :=
  (W3_of_ne m ρ c main_v1 (by decide)).trans ((W2_of_ne m ρ c main_v1 (by decide)).trans (W1_v1 m ρ c))
theorem W3_v3 (c : Dev nD) : W3 m ρ c (Proc.devRef .tc main_v3) = Cert.ReferenceIdeal.Read.val_main_v3 (F := Ideal) (m ((c.tc : Thread nD τ).loc main_arg1)) :=
  (W3_of_ne m ρ c main_v3 (by decide)).trans ((W2_of_ne m ρ c main_v3 (by decide)).trans (W1_v3 m ρ c))
theorem W3_arg19 (c : Dev nD) : W3 m ρ c (Proc.devRef .tc main_arg19) = m ((c.tc : Thread nD τ).loc main_arg19) := by
  refine (W3_of_ne m ρ c main_arg19 (by decide)).trans ((W2_of_ne m ρ c main_arg19 (by decide)).trans ?_)
  show StableHlo.after hostOps0 (W0 m ρ c) (Proc.devRef .tc main_arg19) = _
  after_results

/-! ## The result -/

set_option maxHeartbeats 4000000 in
/-- THE RESULT BUFFER after the last stretch of host operations is the reference's composed term of the arguments. -/
theorem result (c : Dev nD) :
    W4 m ρ c (Proc.devRef .tc main_v35)
      = Cert.ReferenceIdeal.Read.val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  show StableHlo.after hostOps2 (W3 m ρ c) (Proc.devRef .tc main_v35) = _
  after_results_simp
  rw [out0, out1, W3_v1, W3_v3, W3_arg19]
  rfl

end Cert.KernelIdeal.Result

end
-- ==== Proof.lean ====
/-
  Two directions of edge-conditioned message passing over a graph of 100000 nodes and 800000 edges, mixed by
  `sigmoid(alpha)`: the kernel against its reference, on the extended reals.

  Both programs slice the edge list into first and second endpoints, gather the node rows at an endpoint, compute
  per edge the message `relu((x + relu(a · We1 + be1) · We2 + be2) · Wm1 + bm1) · Wm2 + bm2` of the gathered row `x` and
  the attribute row `a`, scatter-add the messages to the nodes at the other endpoint, and return
  `s · forward + (1 - s) · backward` with `s = 1 / (1 + exp(-alpha))`. They differ in HOW the messages are computed: the
  reference by four whole-array products per direction; the kernel in blocks of 3200 edges, one launch per direction,
  each product into a zero accumulator with its operands passed through a narrower float format. On the extended
  reals the format changes are identities, a product into a zero accumulator is the plain sum, and a message depends
  on its own edge's rows only, so each launch's output array is the reference's message stage exactly
  (Proof/EdgeMessage.lean: the message; Proof/PayloadAt.lean: the body at an entry; Proof/RegionArray.lean: blocks to
  the array; Proof/RefMessages.lean: the reference's stage; Proof/KernelValue.lean: the result buffer; Proof/KernelRun.lean:
  the run). Everything around the messages is the same operation in both programs, so no algebraic law is needed and
  the finiteness of the inputs is never used.
-/
import proofs.«115802_j53395033424421_1_alg».proof.Defs
import proofs.«115802_j53395033424421_1_alg».proof.Proof.Gen.Kernel
import proofs.«115802_j53395033424421_1_alg».proof.Proof.Gen.Kernel.Skeleton
import proofs.«115802_j53395033424421_1_alg».proof.Proof.Gen.Kernel.Launch
import proofs.«115802_j53395033424421_1_alg».proof.Proof.Gen.Kernel.Points
import proofs.«115802_j53395033424421_1_alg».proof.Proof.Gen.Kernel.Frame
import proofs.«115802_j53395033424421_1_alg».proof.Proof.Gen.KernelIdeal
import proofs.«115802_j53395033424421_1_alg».proof.Proof.Gen.KernelIdeal.Skeleton
import proofs.«115802_j53395033424421_1_alg».proof.Proof.Gen.KernelIdeal.Launch
import proofs.«115802_j53395033424421_1_alg».proof.Proof.Gen.KernelIdeal.Points
import proofs.«115802_j53395033424421_1_alg».proof.Proof.Gen.KernelIdeal.Frame
import proofs.«115802_j53395033424421_1_alg».proof.Proof.Gen.ReferenceIdeal
import proofs.«115802_j53395033424421_1_alg».proof.Proof.Gen.ReferenceIdeal.Run
import proofs.«115802_j53395033424421_1_alg».proof.Proof.Gen.ReferenceIdeal.Read
import proofs.«115802_j53395033424421_1_alg».proof.Proof.Gen.Pre_finite_inputs
import proofs.«115802_j53395033424421_1_alg».proof.Proof.KernelRun
import proofs.«115802_j53395033424421_1_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- From memories that agree on the arguments both programs end with the reference's composed term of the kernel's
    arguments in their result buffers: the kernel's run read at its result (Proof/KernelValue.lean), the reference's
    generated run with the arguments' agreement rewritten. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Result.result m ρ c), (h c).2⟩)
    (Cert.KernelIdeal.Named.run (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v71_eq, h0, h1, h2, h3, h4, h5, h6, h7, h8, h9, h10, h11, h12, h13, h14, h15, h16, h17, h18, h19]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
